-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3 : Shape := ⟨2, ![16384, 3]⟩
abbrev S16384 : Shape := ⟨1, ![16384]⟩
abbrev S21 : Shape := ⟨1, ![21]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel
  bcast_S_S21 : S_.BroadcastsInDim S21 (![] : Fin 0 → Fin S21.rank)
  reducesTo_S21_S_d0 : S21.ReducesTo [0] S_

variable [Facts]

def fn {F : FTy → Type} [FloatOps F] (main_arg0 : FVec F S16384x3 .f32) (main_arg1 : IVec S16384 32) (main_arg2 : FVec F S21 .f32) : IVec S_ 1 :=
  let main_v0 : FVec F S16384x3 .f32 := Host.absf main_arg0
  let main_cst : FVec F S_ .f32 := constant S_ .f32 0x7F800000#32
  let main_v1 : FVec F S16384x3 .f32 := broadcastInDim S16384x3 ![] bcast_S_S16384x3 main_cst
  let main_v2 : IVec S16384x3 1 := cmpf .olt main_v0 main_v1
  let main_c : IVec S_ 1 := constantI S_ 1 1#1
  let main_v3 : IVec S_ 1 := (fun x v => Host.reduce IntOp.andi x v reducesTo_S16384x3_S_d0_1 h_S_) main_v2 main_c
  let main_v4 : FVec F S21 .f32 := Host.absf main_arg2
  let main_cst_0 : FVec F S_ .f32 := constant S_ .f32 0x7F800000#32
  let main_v5 : FVec F S21 .f32 := broadcastInDim S21 ![] bcast_S_S21 main_cst_0
  let main_v6 : IVec S21 1 := cmpf .olt main_v4 main_v5
  let main_c_1 : IVec S_ 1 := constantI S_ 1 1#1
  let main_v7 : IVec S_ 1 := (fun x v => Host.reduce IntOp.andi x v reducesTo_S21_S_d0 h_S_) main_v6 main_c_1
  let main_v8 : IVec S_ 1 := andi main_v3 main_v7
  main_v8
-- ==== Kernel.lean ====
abbrev S16384x3 : Shape := ⟨2, ![16384, 3]⟩
abbrev S16384 : Shape := ⟨1, ![16384]⟩
abbrev S21 : Shape := ⟨1, ![21]⟩
abbrev S3x16384 : Shape := ⟨2, ![3, 16384]⟩
abbrev S16384x1 : Shape := ⟨2, ![16384, 1]⟩
abbrev S512x3 : Shape := ⟨2, ![512, 3]⟩
abbrev S3x2048 : Shape := ⟨2, ![3, 2048]⟩
abbrev S512x1 : Shape := ⟨2, ![512, 1]⟩
abbrev S512x128 : Shape := ⟨2, ![512, 128]⟩
abbrev S1x2048 : Shape := ⟨2, ![1, 2048]⟩
abbrev S512x2048 : Shape := ⟨2, ![512, 2048]⟩
abbrev S512 : Shape := ⟨1, ![512]⟩
abbrev S_ : Shape := ⟨0, ![]⟩

abbrev nBuf : Space → Nat
  | .hbm => 23
  | .vmem => 7
  | .smem => 0
  | _ => 0

abbrev bufTy : (tb : Table) → Fin (tcTables nBuf tb) → BufTy
  | .hbm, ⟨0, _⟩ => ⟨S16384x3, .f32⟩
  | .hbm, ⟨1, _⟩ => ⟨S16384, .i32⟩
  | .hbm, ⟨2, _⟩ => ⟨S21, .f32⟩
  | .hbm, ⟨3, _⟩ => ⟨S3x16384, .f32⟩
  | .hbm, ⟨4, _⟩ => ⟨S16384x1, .f32⟩
  | .hbm, ⟨5, _⟩ => ⟨S16384, .f32⟩
  | .hbm, ⟨6, _⟩ => ⟨S_, .i32⟩
  | .hbm, ⟨7, _⟩ => ⟨S16384, .i32⟩
  | .hbm, ⟨8, _⟩ => ⟨S16384, .i1⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S16384x1, .i32⟩
  | .hbm, ⟨14, _⟩ => ⟨S16384, .f32⟩
  | .hbm, ⟨15, _⟩ => ⟨S_, .f32⟩
  | .hbm, ⟨16, _⟩ => ⟨S16384, .f32⟩
  | .hbm, ⟨17, _⟩ => ⟨S16384, .f32⟩
  | .hbm, ⟨18, _⟩ => ⟨S16384, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S512x3, .f32⟩
  | .local _ .vmem, ⟨1, _⟩ => ⟨S512x3, .f32⟩
  | .local _ .vmem, ⟨2, _⟩ => ⟨S3x2048, .f32⟩
  | .local _ .vmem, ⟨3, _⟩ => ⟨S3x2048, .f32⟩
  | .local _ .vmem, ⟨4, _⟩ => ⟨S512x1, .f32⟩
  | .local _ .vmem, ⟨5, _⟩ => ⟨S512x1, .f32⟩
  | .local _ .vmem, ⟨6, _⟩ => ⟨S512x128, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v66 : BitVec 1 := Scalar.cmpi .eq arg1 c7_i32
  let v67 : BitVec 32 := Scalar.extui v66
  let c0_i32_8 : BitVec 32 := 0#32
  let v68 : BitVec 1 := Scalar.cmpi .ne v67 c0_i32_8
  v68

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S16384x3_S3x16384_1_0 : S16384x3.Transposes [1, 0] S3x16384
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x3_S512x3_0_0 : ∀ a, (![0, 0] : Fin 2 → Nat) a + S512x3.size a ≤ S512x3.size a
  h_S512x3 : 0 < S512x3.numel
  inb_S3x2048_S3x2048_0_0 : ∀ a, (![0, 0] : Fin 2 → Nat) a + S3x2048.size a ≤ S3x2048.size a
  h_S3x2048 : 0 < S3x2048.numel
  shapeCasts_S3x2048_S3x2048 : S3x2048.ShapeCasts S3x2048
  slices_S512x3_o0_0_S512x1 : S512x3.Slices ![0, 0] S512x1
  slices_S512x3_o0_1_S512x1 : S512x3.Slices ![0, 1] S512x1
  slices_S512x3_o0_2_S512x1 : S512x3.Slices ![0, 2] S512x1
  slices_S3x2048_o0_0_S1x2048 : S3x2048.Slices ![0, 0] S1x2048
  slices_S3x2048_o1_0_S1x2048 : S3x2048.Slices ![1, 0] S1x2048
  slices_S3x2048_o2_0_S1x2048 : S3x2048.Slices ![2, 0] S1x2048
  broadcasts_S512x1_S512x2048 : S512x1.Broadcasts S512x2048
  broadcasts_S1x2048_S512x2048 : S1x2048.Broadcasts S512x2048
  natLt_1_32 : 1 < 32
  slices_S512x2048_o0_0_S512x128 : S512x2048.Slices ![0, 0] S512x128
  slices_S512x2048_o0_128_S512x128 : S512x2048.Slices ![0, 128] S512x128
  slices_S512x2048_o0_256_S512x128 : S512x2048.Slices ![0, 256] S512x128
  slices_S512x2048_o0_384_S512x128 : S512x2048.Slices ![0, 384] S512x128
  slices_S512x2048_o0_512_S512x128 : S512x2048.Slices ![0, 512] S512x128
  slices_S512x2048_o0_640_S512x128 : S512x2048.Slices ![0, 640] S512x128
  slices_S512x2048_o0_768_S512x128 : S512x2048.Slices ![0, 768] S512x128
  slices_S512x2048_o0_896_S512x128 : S512x2048.Slices ![0, 896] S512x128
  slices_S512x2048_o0_1024_S512x128 : S512x2048.Slices ![0, 1024] S512x128
  slices_S512x2048_o0_1152_S512x128 : S512x2048.Slices ![0, 1152] S512x128
  slices_S512x2048_o0_1280_S512x128 : S512x2048.Slices ![0, 1280] S512x128
  slices_S512x2048_o0_1408_S512x128 : S512x2048.Slices ![0, 1408] S512x128
  slices_S512x2048_o0_1536_S512x128 : S512x2048.Slices ![0, 1536] S512x128
  slices_S512x2048_o0_1664_S512x128 : S512x2048.Slices ![0, 1664] S512x128
  slices_S512x2048_o0_1792_S512x128 : S512x2048.Slices ![0, 1792] S512x128
  slices_S512x2048_o0_1920_S512x128 : S512x2048.Slices ![0, 1920] S512x128
  reduces_S512x128_S512 : S512x128.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S16384x1_S16384 : S16384x1.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  reducesTo_S16384_S_d0 : S16384.ReducesTo [0] S_
  h_S_ : 0 < S_.numel
  gather_S21_S16384x1_S16384_n_0_n_n_0_1_1_wf : GatherDims.WF S21 S16384x1 S16384 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3.size a ≤ S16384x3.size a
  hwx0_0 : ∀ i : grid0.Coords, EltTy.bits .f32 = 32 ∨ (Rect.block (s := S16384x3) S512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x2048.size a ≤ S3x16384.size a
  hwx0_1 : ∀ i : grid0.Coords, EltTy.bits .f32 = 32 ∨ (Rect.block (s := S3x16384) S3x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S16384x1.size a
  hwx0_2 : ∀ i : grid0.Coords, EltTy.bits .f32 = 32 ∨ (Rect.block (s := S16384x1) S512x1.size (cc0_transform_2 i) (hinb0_2 i)).WholeWords (EltTy.packing .f32)

variable [Facts₀]

def gather_S21_S16384x1_S16384_n_0_n_n_0_1_1 : GatherDims S21 S16384x1 S16384 where
  offsetDims := []
  collapsedSliceDims := [0]
  operandBatchingDims := []
  startIndicesBatchingDims := []
  startIndexMap := [0]
  indexVectorDim := 1
  sliceSizes := ![1]
  wf := gather_S21_S16384x1_S16384_n_0_n_n_0_1_1_wf

abbrev win0_0 : Pipeline.Window sig grid0 :=
  Pipeline.Window.ofSpec (Memref.whole main_arg0) S512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x3 : Shape := ⟨2, ![16384, 3]⟩
abbrev S16384 : Shape := ⟨1, ![16384]⟩
abbrev S21 : Shape := ⟨1, ![21]⟩
abbrev S_ : Shape := ⟨0, ![]⟩
abbrev S16384x1 : Shape := ⟨2, ![16384, 1]⟩
abbrev S1x16384 : Shape := ⟨2, ![1, 16384]⟩
abbrev S16384x16384 : Shape := ⟨2, ![16384, 16384]⟩
abbrev S3x16384 : Shape := ⟨2, ![3, 16384]⟩

abbrev nBuf : Space → Nat
  | .hbm => 44
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S16384, .i32⟩
  | .hbm, ⟨2, _⟩ => ⟨S21, .f32⟩
  | .hbm, ⟨3, _⟩ => ⟨S16384x3, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S1x16384, .f32⟩
  | .hbm, ⟨8, _⟩ => ⟨S16384x16384, .f32⟩
  | .hbm, ⟨9, _⟩ => ⟨S16384x16384, .f32⟩
  | .hbm, ⟨10, _⟩ => ⟨S16384x16384, .f32⟩
  | .hbm, ⟨11, _⟩ => ⟨S3x16384, .f32⟩
  | .hbm, ⟨12, _⟩ => ⟨S16384x16384, .f32⟩
  | .hbm, ⟨13, _⟩ => ⟨S_, .f32⟩
  | .hbm, ⟨14, _⟩ => ⟨S16384x16384, .f32⟩
  | .hbm, ⟨15, _⟩ => ⟨S16384x16384, .f32⟩
  | .hbm, ⟨16, _⟩ => ⟨S16384x16384, .f32⟩
  | .hbm, ⟨17, _⟩ => ⟨S_, .f32⟩
  | .hbm, ⟨18, _⟩ => ⟨S16384x16384, .f32⟩
  | .hbm, ⟨19, _⟩ => ⟨S16384x16384, .f32⟩
  | .hbm, ⟨20, _⟩ => ⟨S16384x16384, .f32⟩
  | .hbm, ⟨21, _⟩ => ⟨S_, .f32⟩
  | .hbm, ⟨22, _⟩ => ⟨S16384x16384, .f32⟩
  | .hbm, ⟨23, _⟩ => ⟨S16384x16384, .i1⟩
  | .hbm, ⟨24, _⟩ => ⟨S16384x16384, .f32⟩
  | .hbm, ⟨25, _⟩ => ⟨S_, .f32⟩
  | .hbm, ⟨26, _⟩ => ⟨S16384, .f32⟩
  | .hbm, ⟨27, _⟩ => ⟨S_, .i32⟩
  | .hbm, ⟨28, _⟩ => ⟨S16384, .i32⟩
  | .hbm, ⟨29, _⟩ => ⟨S16384, .i1⟩
  | .hbm, ⟨30, _⟩ => ⟨S_, .i32⟩
  | .hbm, ⟨31, _⟩ => ⟨S16384, .i32⟩
  | .hbm, ⟨32, _⟩ => ⟨S16384, .i32⟩
  | .hbm, ⟨33, _⟩ => ⟨S16384, .i32⟩
  | .hbm, ⟨34, _⟩ => ⟨S16384x1, .i32⟩
  | .hbm, ⟨35, _⟩ => ⟨S16384, .f32⟩
  | .hbm, ⟨36, _⟩ => ⟨S_, .f32⟩
  | .hbm, ⟨37, _⟩ => ⟨S16384, .f32⟩
  | .hbm, ⟨38, _⟩ => ⟨S16384, .f32⟩
  | .hbm, ⟨39, _⟩ => ⟨S16384, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_c : Ref sig .tc := ⟨.hbm, 27, rfl⟩
abbrev main_v19 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩

abbrev nD : Nat := 1
abbrev τ : Topo := Topo.v7x

variable {F : FTy → Type} [FloatOps F]

class Facts₀ : Prop where
  reducesTo_S16384x3_S16384_d1 : S16384x3.ReducesTo [1] S16384
  h_S_ : 0 < S_.numel
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  transposes_S16384x3_S3x16384_1_0 : S16384x3.Transposes [1, 0] S3x16384
  bcast_S_S16384x16384 : S_.BroadcastsInDim S16384x16384 (![] : Fin 0 → Fin S16384x16384.rank)
  reducesTo_S16384x16384_S16384_d1 : S16384x16384.ReducesTo [1] S16384
  bcast_S_S16384 : S_.BroadcastsInDim S16384 (![] : Fin 0 → Fin S16384.rank)
  reducesTo_S16384_S_d0 : S16384.ReducesTo [0] S_
  dot_S16384x3_S3x16384_S16384x16384_1_0_0_1_n_n_wf : DotDims.WF S16384x3 S3x16384 S16384x16384 [1] [0] [0] [1] [] []
  gather_S21_S16384x1_S16384_n_0_n_n_0_1_1_wf : GatherDims.WF S21 S16384x1 S16384 [] [0] [] [0] [] 1 ![1]

variable [Facts₀]

def dot_S16384x3_S3x16384_S16384x16384_1_0_0_1_n_n : DotDims S16384x3 S3x16384 S16384x16384 where
  lhsContracting := [1]
  rhsContracting := [0]
  lhsNonContracting := [0]
  rhsNonContracting := [1]
  lhsBatch := []
  rhsBatch := []
  wf := dot_S16384x3_S3x16384_S16384x16384_1_0_0_1_n_n_wf
def gather_S21_S16384x1_S16384_n_0_n_n_0_1_1 : GatherDims S21 S16384x1 S16384 where
  offsetDims := []
  collapsedSliceDims := [0]
  operandBatchingDims := []
  startIndicesBatchingDims := []
  startIndexMap := [0]
  indexVectorDim := 1
  sliceSizes := ![1]
  wf := gather_S21_S16384x1_S16384_n_0_n_n_0_1_1_wf

class Facts : Prop extends Facts₀ where

variable [Facts]
-- ==== Proof.KernelRun.lean ====
/-
  The kernel program's run, read at its result and its three arguments.

  Every weakly fair execution of the program ends with each array the steps stage at what the steps leave in it, and
  every other buffer at what the operations after the steps compute from those arrays.  The result is such a buffer,
  and so are the second and third arguments, which nothing writes; the first argument is an array the steps only
  read, so it ends as it began.
-/
import proofs.«160687_j52458730553493_2_alg».proof.Proof.Gen.KernelIdeal.Frame
import Idealize.ShloMosaic.Lib.Pipeline.Value
import Idealize.ShloMosaic.PureOps.Ideal

noncomputable section

namespace Cert.KernelIdeal.KRun

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- Every weakly fair execution of the kernel program ends with its result at whatever the host operations after the region compute (E), and its three arguments unchanged. -/
theorem run_of (E : (c : Dev nD) → Buf (Elt Ideal) ((c.tc : Thread nD τ).loc main_v14))
    (hE : ∀ c, Pipeline.afterTail₀ cfgs (dats m) 0 (V0 m) [hostOps1] c main_v14 = E c) :
    θ_run defs (onTc (τ := τ) (main (F := Ideal))) ⟨m, fun _ => 0, ρ⟩ (fun r => ∀ c : Dev nD,
      r.2.mem ((c.tc : Thread nD τ).loc main_v14) = E c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v14 (Pipeline.mem_restRefs_of main_v14 (by decide) (by decide))).trans (hE c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KRun

end
-- ==== Proof.Spec.lean ====
/-
  The neighbour count both programs compute, over plain index types.

  There are 16384 points with three coordinates each.  Two points are neighbours when their Euclidean distance is
  below 8.  One program decides this from the squared distance written as the sum of the three squared coordinate
  differences, compared with 64 (`near`); the other from the square root of `|p|² + |q|² − 2⟨p, q⟩` clamped below at
  zero, compared with 8 (`nearR`).  Either way the answer is the number 0 or 1, and a point's count is the sum of
  these numbers over all points (itself included).
-/
import Idealize.ShloMosaic.PureOps.Ideal
import Idealize.ShloMosaic.Lib.ValueIdx

noncomputable section

open scoped BigOperators

namespace Cert.Spec

open Idealize.ShloMosaic Idealize.ShloMosaic.ValueIdx

/-- The coordinates: entry `(p, k)` is coordinate `k` of point `p`. -/
abbrev Pts : Type := (⟨2, ![16384, 3]⟩ : Shape).Idx → EReal

/-- Whether the points `a` and `b` are closer than 8, as the number 0 or 1: the three squared coordinate differences
    added from the left, compared strictly with 64 (the word `0x42800000`); the comparison's one-bit word widened to 32
    bits and read as a signed integer. -/
def nearK (a0 a1 a2 b0 b1 b2 : EReal) : EReal :=
  ((((Ideal.cmp .olt (((a0 - b0) * (a0 - b0) + (a1 - b1) * (a1 - b1)) + (a2 - b2) * (a2 - b2))
      (Ideal.ofBits .f32 0x42800000#32)).setWidth 32).toInt : ℝ) : EReal)

/-- `nearK` of points `p` and `q` of the coordinate array. -/
def near (x : Pts) (p q : Fin 16384) : EReal :=
  nearK (x (ix2 p 0)) (x (ix2 p 1)) (x (ix2 p 2)) (x (ix2 q 0)) (x (ix2 q 1)) (x (ix2 q 2))

/-- The number of points closer than 8 to point `p`. -/
def count (x : Pts) (p : Fin 16384) : EReal := ∑ q : Fin 16384, near x p q

/-- The squared norm of point `p`, summed from the zero word. -/
def sqn (x : Pts) (p : Fin 16384) : EReal :=
  Ideal.ofBits .f32 0x00000000#32 + ∑ k : Fin 3, x (ix2 p k) * x (ix2 p k)

/-- Whether points `p` and `q` are closer than 8, decided from `√(max (|p|² + |q|² − 2⟨p, q⟩) 0) < 8` (the words
    `0x40000000` = 2, `0x41000000` = 8); the comparison's one-bit word read as an unsigned integer. -/
def nearR (x : Pts) (p q : Fin 16384) : EReal :=
  ((((Ideal.cmp .olt
      (Ideal.sqrt (max ((sqn x p + sqn x q) - Ideal.ofBits .f32 0x40000000#32 * ∑ k : Fin 3, x (ix2 p k) * x (ix2 q k))
        (Ideal.ofBits .f32 0x00000000#32)))
      (Ideal.ofBits .f32 0x41000000#32)).toNat : ℝ)) : EReal)

/-- The count by `nearR`, summed from the zero word. -/
def countR (x : Pts) (p : Fin 16384) : EReal :=
  Ideal.ofBits .f32 0x00000000#32 + ∑ q : Fin 16384, nearR x p q

end Cert.Spec

end
-- ==== Proof.Bounds.lean ====
/-
  The arithmetic of positions.  The 16384 points are handled as 32 row blocks of 512 points against 8 column tiles of
  2048 points, a tile being sixteen slices of 128 lanes; the steps are numbered 0 … 255, step `n` pairing row block
  `n / 8` with column tile `n % 8`.  Every position named that way is a point number below 16384.
-/
import Mathlib.Tactic

namespace Cert.Spec

/-- Row `r` of the row block of step `n` is a point. -/
theorem row_lt (n : ℕ) (hn : n < 256) (r : Fin 512) : n / 8 * 512 + r.val < 16384 := by
  have := r.isLt; omega

/-- Column `q` of column tile `j` (one of eight) is a point. -/
theorem col_lt (j : ℕ) (hj : j < 8) (q : Fin 2048) : j * 2048 + q.val < 16384 := by
  have := q.isLt; omega

/-- Lane `l` of slice `c` is a column of the tile. -/
theorem lane_lt (c : Fin 16) (l : Fin 128) : c.val * 128 + l.val < 2048 := by
  have := c.isLt; have := l.isLt; omega

/-- Lane `l` of slice `c` of tile `j` is a point. -/
theorem pos_lt (j : ℕ) (hj : j < 8) (c : Fin 16) (l : Fin 128) : j * 2048 + c.val * 128 + l.val < 16384 := by
  have := c.isLt; have := l.isLt; omega

end Cert.Spec
-- ==== Proof.Final.lean ====
/-
  From the output window's blocks to the whole result array of the region.

  The 256 steps are numbered t = 0 … 255; step t works on row block t / 8 (512 points) against column tile t % 8.
  The output window is a 512 × 1 block of the 16384 × 1 result array, at block index (t / 8, 0): it occupies rows
  (t / 8) · 512 … (t / 8) · 512 + 511.  It is written back exactly at the last-tile steps, those with t % 8 = 7.

  If at every last-tile step the block holds, at row r, the count of point (t / 8) · 512 + r, then what the step writes
  back is its block of the one array "row p holds the count of point p" (`flushed_eq`: row r of the block at step t is
  row (t / 8) · 512 + r of the array).  Every row p of the array lies in the block of the last-tile step
  t = (p / 512) · 8 + 7, whose row block is t / 8 = p / 512 and which contains p because
  (p / 512) · 512 ≤ p < (p / 512) · 512 + 512.  Blocks written back that are restrictions of one array and together
  cover it leave the array equal to it (`final_counts`).
-/
import proofs.«160687_j52458730553493_2_alg».proof.Proof.Gen.KernelIdeal.Frame
import proofs.«160687_j52458730553493_2_alg».proof.Proof.Spec
import proofs.«160687_j52458730553493_2_alg».proof.Proof.Bounds
import Idealize.ShloMosaic.Lib.Pipeline.Value
import Idealize.ShloMosaic.Lib.ValueIdx

set_option maxRecDepth 16384

noncomputable section

namespace Cert.KernelIdeal.Final

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

theorem tlt (t : Fin cfg0.N) : t.val < 256 := lt_of_lt_of_eq t.isLt N_0

/-- The counts as the [16384, 1] array the region writes. -/
def countCol (c : Dev nD) : S16384x1.Idx → EReal :=
  fun j => Cert.Spec.count (m ((c.tc : Thread nD τ).loc main_arg0)) ⟨(j 0).val, (j 0).isLt⟩

/-- The output window's block index at step `t` is (t / 8, 0): its row block, and the one column block. Decided once
    over the 256 steps. -/
theorem idx_facts : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)

/-- What a last-tile step writes back is its block of the array of counts: row r of the block at step t is row
    (t / 8) · 512 + r of the array. -/
theorem flushed_eq (c : Dev nD)
    (hout : ∀ (t : Fin cfg0.N), t.val % 8 = 7 → ∀ (r : Fin 512) (u : Fin 1),
      (outsAt0 m c t.val t.isLt).1 (ix2 r u)
        = Cert.Spec.count (m ((c.tc : Thread nD τ).loc main_arg0)) ⟨t.val / 8 * 512 + r.val, Cert.Spec.row_lt t.val (tlt t) r⟩)
    (t : Fin cfg0.N) (hf : (cfg0.win 2).flush t = true) :
    (dats m 0 c).flushed 2 t = ((cfg0.win 2).blk t).view.read (Elt Ideal) (countCol m c) := by
  have h7 := (flush0_2 t).mp hf
  show (cfg0.win 2).cut (grid0.coords t) ((dats m 0 c).after 2 t) = _
  rw [after0_2]
  funext j
  obtain ⟨e0, e1⟩ := idx_facts t
  have hj0 : (j 0).val < 512 := (j 0).isLt
  have hj1 : (j 1).val < 1 := (j 1).isLt
  -- the block is written back whole: entry j of what is written is entry (j₀, j₁) of the block
  have hl : (cfg0.win 2).cut (grid0.coords t) (outsAt0 m c t.val t.isLt).1 j
      = (outsAt0 m c t.val t.isLt).1 (ix2 (⟨(j 0).val, hj0⟩ : Fin 512) (⟨(j 1).val, hj1⟩ : Fin 1)) := by
    show (outsAt0 m c t.val t.isLt).1 ((cfg0.win 2).xinj (grid0.coords t) j) = _
    refine congrArg (outsAt0 m c t.val t.isLt).1 ?_
    funext a
    match a with
    | ⟨0, _⟩ => rfl
    | ⟨1, _⟩ => rfl
  rw [hl, hout t h7, View.read_apply, cast_eq]
  unfold countCol
  -- both sides are the count of one point: (t / 8) · 512 + j₀ is the block's row offset plus the row inside the block
  refine congrArg (Cert.Spec.count (m ((c.tc : Thread nD τ).loc main_arg0))) (Fin.ext ?_)
  show t.val / 8 * 512 + (j 0).val = win0_2.index t (0 : Fin 2) * 512 + 1 * (j 0).val
  rw [e0]; omega

/-- If every last-tile step leaves, in the output block, the counts of its row block's points, the result array ends holding all the counts. -/
theorem final_counts (c : Dev nD)
    (hout : ∀ (t : Fin cfg0.N), t.val % 8 = 7 → ∀ (r : Fin 512) (u : Fin 1),
      (outsAt0 m c t.val t.isLt).1 (ix2 r u)
        = Cert.Spec.count (m ((c.tc : Thread nD τ).loc main_arg0)) ⟨t.val / 8 * 512 + r.val, Cert.Spec.row_lt t.val (tlt t) r⟩) :
    (dats m 0 c).arrAt 2 cfg0.N = countCol m c :=
  (dats m 0 c).arrAt_eq_of_cover 2 (countCol m c) (flushed_eq m c hout) fun i => by
    have hi0 : (i 0).val < 16384 := (i 0).isLt
    have hi1 : (i 1).val < 1 := (i 1).isLt
    -- row p = i₀ is covered by the last-tile step of its row block, t = (p / 512) · 8 + 7
    obtain ⟨t, ht⟩ : ∃ t : Fin cfg0.N, t.val = (i 0).val / 512 * 8 + 7 :=
      ⟨⟨(i 0).val / 512 * 8 + 7, lt_of_lt_of_eq (by omega : (i 0).val / 512 * 8 + 7 < 256) N_0.symm⟩, rfl⟩
    obtain ⟨e0, e1⟩ := idx_facts t
    refine ⟨t, (flush0_2 t).mpr (by omega), ?_⟩
    show i ∈ ((View.whole main_v1).slice (win0_2.rect t)).set
    rw [View.set_slice_whole, Rect.mem_set_unit]
    intro a
    match a with
    | ⟨0, _⟩ =>
      show win0_2.index t (0 : Fin 2) * 512 ≤ (i 0).val ∧ (i 0).val < win0_2.index t (0 : Fin 2) * 512 + 512
      rw [e0]; omega
    | ⟨1, _⟩ =>
      show win0_2.index t (1 : Fin 2) * 1 ≤ (i 1).val ∧ (i 1).val < win0_2.index t (1 : Fin 2) * 1 + 1
      rw [e1]; omega

end Cert.KernelIdeal.Final

end
-- ==== Proof.Pieces.lean ====
/-
  What one step of the kernel leaves behind, as values.

  A step works on a block of 512 points (rows) against a tile of 2048 points (columns).  It forms the 512 × 2048 table of
  0/1 answers "is this row's point closer than 8 to this column's point", folds the table's sixteen 128-column slices
  into a 512 × 128 running total, and — on a tile that is the last of its row block — sums each row of the running
  total into one number.  On the first tile of a row block the running total starts from zero; on every other tile it
  starts from what the previous step left.

  The four lemmas below say exactly that, for the three kinds of step (first tile, middle tile, last tile): the running
  total a step leaves is the update of the total it started from, and the column of row sums a last-tile step leaves is
  the row sums of the total it has just updated.  They hold at every float instance.
-/
import proofs.«160687_j52458730553493_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- Every store and load of a step starts at the origin of its buffer. -/
theorem hz : (![0, 0] : Fin 2 → Nat) = fun _ => 0 := funext fun a => by fin_cases a <;> rfl

/-- A middle tile: the running total `xs0` updated with this tile's table. -/
theorem sout_B (c : Dev nD) (i : grid0.Coords) (a2 : Memref sig .tc .vmem S512x3 .f32) (h2 : a2.IsWhole) (a3 : Memref sig .tc .vmem S3x2048 .f32) (h3 : a3.IsWhole) (a4 : Memref sig .tc .vmem S512x1 .f32) (h4 : a4.IsWhole) (a5 : Memref sig .tc .vmem S512x128 .f32) (h5 : a5.IsWhole) (hc0 : ¬cond0_0 i) (hc1 : ¬cond0_1 i)
    (x0 : Vec F S512x3 .f32) (x1 : Vec F S3x2048 .f32) (xs0 : Vec F S512x128 .f32) :
    sout0_B_0 c i a2 h2 a3 h3 a4 h4 a5 h5 hc0 hc1 x0 x1 xs0 = k0_pay1 (k0_pay4 x0 x1) (k0_pay5 x0 x1) (k0_pay6 x0 x1) xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero hz]
  simp only [View.readAt_eq_ld, h2.read_unread, h3.read_unread, h5.read_unread, View.ld_unit_zero (S := S512x3) hz, View.ld_unit_zero (S := S3x2048) hz, View.ld_unit_zero (S := S512x128) hz]

/-- A last tile leaves the same updated running total. -/
theorem sout_C (c : Dev nD) (i : grid0.Coords) (a2 : Memref sig .tc .vmem S512x3 .f32) (h2 : a2.IsWhole) (a3 : Memref sig .tc .vmem S3x2048 .f32) (h3 : a3.IsWhole) (a4 : Memref sig .tc .vmem S512x1 .f32) (h4 : a4.IsWhole) (a5 : Memref sig .tc .vmem S512x128 .f32) (h5 : a5.IsWhole) (hc0 : ¬cond0_0 i) (hc1 : cond0_1 i)
    (x0 : Vec F S512x3 .f32) (x1 : Vec F S3x2048 .f32) (xs0 : Vec F S512x128 .f32) :
    sout0_C_0 c i a2 h2 a3 h3 a4 h4 a5 h5 hc0 hc1 x0 x1 xs0 = k0_pay1 (k0_pay4 x0 x1) (k0_pay5 x0 x1) (k0_pay6 x0 x1) xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz]
  simp only [View.readAt_eq_ld, h2.read_unread, h3.read_unread, h5.read_unread, View.ld_unit_zero (S := S512x3) hz, View.ld_unit_zero (S := S3x2048) hz, View.ld_unit_zero (S := S512x128) hz]

/-- A first tile: the running total is reset to zero, read back, and updated with this tile's table. -/
theorem sout_A (c : Dev nD) (i : grid0.Coords) (a2 : Memref sig .tc .vmem S512x3 .f32) (h2 : a2.IsWhole) (a3 : Memref sig .tc .vmem S3x2048 .f32) (h3 : a3.IsWhole) (a4 : Memref sig .tc .vmem S512x1 .f32) (h4 : a4.IsWhole) (a5 : Memref sig .tc .vmem S512x128 .f32) (h5 : a5.IsWhole) (hc0 : cond0_0 i) (hc1 : ¬cond0_1 i)
    (x0 : Vec F S512x3 .f32) (x1 : Vec F S3x2048 .f32) :
    sout0_A_0 c i a2 h2 a3 h3 a4 h4 a5 h5 hc0 hc1 x0 x1 = k0_pay1 (k0_pay4 x0 x1) (k0_pay5 x0 x1) (k0_pay6 x0 x1) (k0_pay3 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S512x128) hz, View.readCov_unit_zero (S := S512x128) _ hz]
  simp only [View.readAt_eq_ld, h2.read_unread, h3.read_unread, h5.read_unread, View.ld_unit_zero (S := S512x3) hz, View.ld_unit_zero (S := S3x2048) hz, View.ld_unit_zero (S := S512x128) hz]

/-- A last tile also leaves the column of row sums of the running total it has just updated. -/
theorem out_C (c : Dev nD) (i : grid0.Coords) (a2 : Memref sig .tc .vmem S512x3 .f32) (h2 : a2.IsWhole) (a3 : Memref sig .tc .vmem S3x2048 .f32) (h3 : a3.IsWhole) (a4 : Memref sig .tc .vmem S512x1 .f32) (h4 : a4.IsWhole) (a5 : Memref sig .tc .vmem S512x128 .f32) (h5 : a5.IsWhole) (hc0 : ¬cond0_0 i) (hc1 : cond0_1 i)
    (x0 : Vec F S512x3 .f32) (x1 : Vec F S3x2048 .f32) (xs0 : Vec F S512x128 .f32) :
    out0_C_2 c i a2 h2 a3 h3 a4 h4 a5 h5 hc0 hc1 x0 x1 xs0 = k0_pay2 (k0_pay1 (k0_pay4 x0 x1) (k0_pay5 x0 x1) (k0_pay6 x0 x1) xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz, View.readCov_unit_zero (S := S512x128) _ hz]
  simp only [View.readAt_eq_ld, h2.read_unread, h3.read_unread, h5.read_unread, View.ld_unit_zero (S := S512x3) hz, View.ld_unit_zero (S := S3x2048) hz, View.ld_unit_zero (S := S512x128) hz]

end Cert.KernelIdeal.Pieces

end
-- ==== Proof.LibKeepdims.lean ====
/-
  Three layout facts a row reduction with kept dimensions meets, each read at an entry given by its coordinates:
  a vector of per-row values viewed as a one-column array, a one-column array spread across the columns of each
  row, and the sum along the second axis of a two-axis array.  They hold for arrays of any extents `[a]`,
  `[a, 1]`, `[a, b]` and, the first two, for entries of any type.
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of a `[a, b]` array along its second axis, started from the zero word, is at
    row `i` the sum over the columns `k` of the entries `(i, k)`. -/
theorem multiReduction_add_rows_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  apply Fin.ext
  match ax with
  | ⟨0, _⟩ => rfl
  | ⟨1, _⟩ => rfl

end Cert.LibKeepdims

end
-- ==== Proof.Payloads.lean ====
/-
  The kernel body's arithmetic read at an entry, over the extended reals.

  The body forms a 512 x 2048 tile of zeros and ones: entry (r, q) says whether row r of the first block (three
  coordinates per row) and column q of the second block (three coordinates per column) are closer than 8.  It then
  folds the tile's sixteen 128-column chunks into a 512 x 128 accumulator, lane by lane, and at the end sums the
  accumulator's 128 lanes per row.  Each statement below says what one of these values is at a given entry.
-/
import proofs.«160687_j52458730553493_2_alg».proof.Proof.Gen.KernelIdeal.Skeleton
import proofs.«160687_j52458730553493_2_alg».proof.Proof.Spec
import proofs.«160687_j52458730553493_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pay

open Idealize.ShloMosaic Idealize.ShloMosaic.ValueIdx Cert.KernelIdeal Cert.KernelIdeal.Gen

variable {α : Type}

/-! ## Layout steps at an entry -/

/-- One column `k` of an `[a, n]` array, spread across `b` columns, reads at `(r, q)` the array's entry `(r, k)`. -/
theorem col_spread_apply {a n b : ℕ} (k : Fin n) (x : (⟨2, ![a, n]⟩ : Shape).Idx → α)
    (hs : (⟨2, ![a, n]⟩ : Shape).Slices ![0, k.val] ⟨2, ![a, 1]⟩)
    (hb : (⟨2, ![a, 1]⟩ : Shape).Broadcasts ⟨2, ![a, b]⟩) (r : Fin a) (q : Fin b) :
    broadcastTo ⟨2, ![a, b]⟩ (extractStridedSlice ⟨2, ![a, 1]⟩ ![0, k.val] x hs) hb (ix2 r q) = x (ix2 r k) :=
  (Cert.LibKeepdims.broadcastTo_a1_ab_apply _ hb r q).trans
    (slice2_axis1_apply k.val x hs r (0 : Fin 1) k (Nat.add_zero _).symm)

/-- One row `k` of an `[n, b]` array, spread down `a` rows, reads at `(r, q)` the array's entry `(k, q)`. -/
theorem row_spread_apply {a n b : ℕ} (k : Fin n) (x : (⟨2, ![n, b]⟩ : Shape).Idx → α)
    (hs : (⟨2, ![n, b]⟩ : Shape).Slices ![k.val, 0] ⟨2, ![1, b]⟩)
    (hb : (⟨2, ![1, b]⟩ : Shape).Broadcasts ⟨2, ![a, b]⟩) (r : Fin a) (q : Fin b) :
    broadcastTo ⟨2, ![a, b]⟩ (extractStridedSlice ⟨2, ![1, b]⟩ ![k.val, 0] x hs) hb (ix2 r q) = x (ix2 k q) :=
  (broadcastTo_1b_ab_apply _ hb r q).trans
    (slice2_axis0_apply k.val x hs (0 : Fin 1) q k (Nat.add_zero _).symm)

/-! ## The 0/1 tile -/

/-- The 0/1 tile: entry (r, q) compares row r of the first block with column q of the second. -/
theorem pay4_apply (x0 : Vec Ideal S512x3 .f32) (x1 : Vec Ideal S3x2048 .f32) (r : Fin 512) (q : Fin 2048) :
    k0_pay4 (F := Ideal) x0 x1 (ix2 r q)
      = Cert.Spec.nearK (x0 (ix2 r 0)) (x0 (ix2 r 1)) (x0 (ix2 r 2)) (x1 (ix2 0 q)) (x1 (ix2 1 q)) (x1 (ix2 2 q)) := by
  have a0 := col_spread_apply (b := 2048) (0 : Fin 3) x0 slices_S512x3_o0_0_S512x1 broadcasts_S512x1_S512x2048 r q
  have a1 := col_spread_apply (b := 2048) (1 : Fin 3) x0 slices_S512x3_o0_1_S512x1 broadcasts_S512x1_S512x2048 r q
  have a2 := col_spread_apply (b := 2048) (2 : Fin 3) x0 slices_S512x3_o0_2_S512x1 broadcasts_S512x1_S512x2048 r q
  have b0 := row_spread_apply (a := 512) (0 : Fin 3) x1 slices_S3x2048_o0_0_S1x2048 broadcasts_S1x2048_S512x2048 r q
  have b1 := row_spread_apply (a := 512) (1 : Fin 3) x1 slices_S3x2048_o1_0_S1x2048 broadcasts_S1x2048_S512x2048 r q
  have b2 := row_spread_apply (a := 512) (2 : Fin 3) x1 slices_S3x2048_o2_0_S1x2048 broadcasts_S1x2048_S512x2048 r q
  unfold k0_pay4 Cert.Spec.nearK
  simp only [shapeCast_self]
  rw [← a0, ← a1, ← a2, ← b0, ← b1, ← b2]
  rfl

/-! ## The accumulator -/

/-- The 128-column chunk `c` of a 2048-column array reads at `(r, l)` the array's entry `(r, 128 c + l)`. -/
theorem chunk_apply (y : (⟨2, ![512, 2048]⟩ : Shape).Idx → α) (c : Fin 16)
    (h : (⟨2, ![512, 2048]⟩ : Shape).Slices ![0, c.val * 128] ⟨2, ![512, 128]⟩) (r : Fin 512) (l : Fin 128) :
    extractStridedSlice ⟨2, ![512, 128]⟩ ![0, c.val * 128] y h (ix2 r l)
      = y (ix2 r ⟨c.val * 128 + l.val, by omega⟩) :=
  slice2_axis1_apply (c.val * 128) y h r l _ rfl

/-- A sum over sixteen indices, written out from the left. -/
theorem sum_fin16 {M : Type} [AddCommMonoid M] (f : Fin 16 → M) :
    ∑ c : Fin 16, f c
      = f 0 + f 1 + f 2 + f 3 + f 4 + f 5 + f 6 + f 7 + f 8 + f 9 + f 10 + f 11 + f 12 + f 13 + f 14 + f 15 := by
  simp only [Fin.sum_univ_castSucc, Fin.sum_univ_zero, zero_add]
  rfl

/-- The accumulator update: lane l of row r gains the sixteen tile entries of that row whose column is ≡ l mod 128. -/
theorem pay1_apply (x0 : Vec Ideal S512x3 .f32) (x1 : Vec Ideal S3x2048 .f32) (a : Vec Ideal S512x128 .f32) (r : Fin 512) (l : Fin 128) :
    k0_pay1 (F := Ideal) (k0_pay4 x0 x1) (k0_pay5 x0 x1) (k0_pay6 x0 x1) a (ix2 r l)
      = a (ix2 r l) + ∑ c : Fin 16, k0_pay4 (F := Ideal) x0 x1 (ix2 r ⟨c.val * 128 + l.val, by omega⟩) := by
  have h0 := chunk_apply (k0_pay4 (F := Ideal) x0 x1) 0 slices_S512x2048_o0_0_S512x128 r l
  have h1 := chunk_apply (k0_pay4 (F := Ideal) x0 x1) 1 slices_S512x2048_o0_128_S512x128 r l
  have h2 := chunk_apply (k0_pay4 (F := Ideal) x0 x1) 2 slices_S512x2048_o0_256_S512x128 r l
  have h3 := chunk_apply (k0_pay4 (F := Ideal) x0 x1) 3 slices_S512x2048_o0_384_S512x128 r l
  have h4 := chunk_apply (k0_pay4 (F := Ideal) x0 x1) 4 slices_S512x2048_o0_512_S512x128 r l
  have h5 := chunk_apply (k0_pay4 (F := Ideal) x0 x1) 5 slices_S512x2048_o0_640_S512x128 r l
  have h6 := chunk_apply (k0_pay4 (F := Ideal) x0 x1) 6 slices_S512x2048_o0_768_S512x128 r l
  have h7 := chunk_apply (k0_pay4 (F := Ideal) x0 x1) 7 slices_S512x2048_o0_896_S512x128 r l
  have h8 := chunk_apply (k0_pay4 (F := Ideal) x0 x1) 8 slices_S512x2048_o0_1024_S512x128 r l
  have h9 := chunk_apply (k0_pay4 (F := Ideal) x0 x1) 9 slices_S512x2048_o0_1152_S512x128 r l
  have h10 := chunk_apply (k0_pay4 (F := Ideal) x0 x1) 10 slices_S512x2048_o0_1280_S512x128 r l
  have h11 := chunk_apply (k0_pay4 (F := Ideal) x0 x1) 11 slices_S512x2048_o0_1408_S512x128 r l
  have h12 := chunk_apply (k0_pay4 (F := Ideal) x0 x1) 12 slices_S512x2048_o0_1536_S512x128 r l
  have h13 := chunk_apply (k0_pay4 (F := Ideal) x0 x1) 13 slices_S512x2048_o0_1664_S512x128 r l
  have h14 := chunk_apply (k0_pay4 (F := Ideal) x0 x1) 14 slices_S512x2048_o0_1792_S512x128 r l
  have h15 := chunk_apply (k0_pay4 (F := Ideal) x0 x1) 15 slices_S512x2048_o0_1920_S512x128 r l
  unfold k0_pay1 k0_pay5 k0_pay6
  simp only [shapeCast_self]
  rw [sum_fin16, ← h0, ← h1, ← h2, ← h3, ← h4, ← h5, ← h6, ← h7, ← h8, ← h9, ← h10, ← h11, ← h12, ← h13, ← h14, ← h15]
  rfl

/-- The accumulator's reset value. -/
theorem pay3_apply (r : Fin 512) (l : Fin 128) : k0_pay3 (F := Ideal) (ix2 r l) = 0 := by
  unfold k0_pay3
  simp only [shapeCast_self]
  exact Ideal.ofBits_zero_f32

/-! ## The epilogue -/

/-- The epilogue: the row's 128 lanes summed. -/
theorem pay2_apply (v : Vec Ideal S512x128 .f32) (r : Fin 512) (u : Fin 1) :
    k0_pay2 (F := Ideal) v (ix2 r u) = ∑ l : Fin 128, v (ix2 r l) := by
  unfold k0_pay2
  exact (Cert.LibKeepdims.shapeCast_a_a1_apply _ shapeCasts_S512_S512x1 r u).trans
    (Cert.LibKeepdims.multiReduction_add_rows_apply v reduces_S512x128_S512 (.inl rfl) rfl r)

end Cert.KernelIdeal.Pay

end
-- ==== Proof.Blocks.lean ====
/-
  The two input windows' blocks, read at an index.

  The 256 steps pair row block `t / 8` (512 points) with column tile `t % 8` (2048 points).  The first window reads
  its block from the coordinate array itself: row `r`, coordinate `k` of the block of step `t` is coordinate `k` of
  point `(t / 8) * 512 + r`.  The second window reads its block from the transposed coordinate array (3 × 16384), which
  is formed from the coordinate array before the steps begin: coordinate `k`, column `q` of the tile of step `t` is
  coordinate `k` of point `(t % 8) * 2048 + q`.  A block's position inside its array is, on every axis, the block
  index times the block's extent plus the position inside the block.
-/
import proofs.«160687_j52458730553493_2_alg».proof.Proof.Gen.KernelIdeal.Frame
import proofs.«160687_j52458730553493_2_alg».proof.Proof.Bounds
import Idealize.ShloMosaic.Lib.Pipeline.Value
import Idealize.ShloMosaic.Lib.ValueIdx
import Idealize.ShloMosaic.Lib.StableHlo.Run

noncomputable section

namespace Cert.KernelIdeal.Blocks

open Idealize.ShloMosaic Idealize.ShloMosaic.TcCoe Idealize.ShloMosaic.ValueIdx Idealize.SL.Sem Cert.KernelIdeal Cert.KernelIdeal.Gen

variable {F : FTy → Type} [FloatOps F] (m : (ℓ : Loc nD τ sig) → Buf (Elt F) ℓ)

/-- There are 256 steps. -/
theorem tlt (t : Fin cfg0.N) : t.val < 256 := lt_of_lt_of_eq t.isLt N_0

/-- The row window's block index at step `t` is `(t / 8, 0)`: decided over the 256 steps. -/
theorem index_rows : ∀ t : Fin cfg0.N, win0_0.index t 0 = t.val / 8 ∧ win0_0.index t 1 = 0 :=
  (by decide +kernel : ∀ t : Fin grid0.N, win0_0.index t 0 = t.val / 8 ∧ win0_0.index t 1 = 0)

/-- The column window's block index at step `t` is `(0, t % 8)`: decided over the 256 steps. -/
theorem index_cols : ∀ t : Fin cfg0.N, win0_1.index t 0 = 0 ∧ win0_1.index t 1 = t.val % 8 :=
  (by decide +kernel : ∀ t : Fin grid0.N, win0_1.index t 0 = 0 ∧ win0_1.index t 1 = t.val % 8)

/-- Row r, coordinate k of the row block of step t is coordinate k of point (t / 8) * 512 + r. -/
theorem iblk0_apply (c : Dev nD) (t : Fin cfg0.N) (r : Fin 512) (k : Fin 3) :
    (iblk m c 0 t : Vec F S512x3 .f32) (ix2 r k) = m ((c.tc : Thread nD τ).loc main_arg0) (ix2 ⟨t.val / 8 * 512 + r.val, Cert.Spec.row_lt t.val (tlt t) r⟩ k) := by
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = t.val / 8 * 512 + r.val; rw [(index_rows t).1]; omega
  | ⟨1, _⟩ => show win0_0.index t 1 * 3 + 1 * k.val = k.val; rw [(index_rows t).2]; omega

/-- When the steps begin, the column window's array is the transpose of the coordinate array. -/
theorem V_main_v0 (c : Dev nD) :
    (V m c main_v0 : S3x16384.Idx → Elt F .f32)
      = transpose S3x16384 [1, 0] (m ((c.tc : Thread nD τ).loc main_arg0)) transposes_S16384x3_S3x16384_1_0 := by
  show StableHlo.after hostOps0 (fun b => m (c, b)) (Proc.devRef .tc main_v0) = _
  after_results

/-- Coordinate k, column q of the column tile of step t is coordinate k of point (t % 8) * 2048 + q. -/
theorem iblk1_apply (c : Dev nD) (t : Fin cfg0.N) (k : Fin 3) (q : Fin 2048) :
    (iblk m c 1 t : Vec F S3x2048 .f32) (ix2 k q) = m ((c.tc : Thread nD τ).loc main_arg0) (ix2 ⟨t.val % 8 * 2048 + q.val, Cert.Spec.col_lt (t.val % 8) (Nat.mod_lt _ (by decide)) q⟩ k) := by
  unfold iblk
  rw [View.read_apply]
  show (V m c main_v0 : S3x16384.Idx → Elt F .f32) _ = m (c.tc.loc main_arg0) _
  rw [V_main_v0]
  -- the transpose at `(a, b)` is the coordinate array at `(b, a)`
  refine transpose_apply [1, 0] _ transposes_S16384x3_S3x16384_1_0 _ _ (fun b => ?_)
  match b with
  | ⟨0, _⟩ => show k.val = win0_1.index t 0 * 3 + 1 * k.val; rw [(index_cols t).1]; omega
  | ⟨1, _⟩ => show t.val % 8 * 2048 + q.val = win0_1.index t 1 * 2048 + 1 * q.val; rw [(index_cols t).2]; omega

end Cert.KernelIdeal.Blocks

end
-- ==== Proof.LibTileSum.lean ====
/-
  A sum over J consecutive tiles of R entries each is the sum over all J * R entries.

  For `f : ℕ → M` into any additive commutative monoid (the extended reals among them), any tile length `R` and any
  number of tiles `J`:

    `tile_sum` :  Σ_{j < J} Σ_{r : Fin R} f (j * R + r) = Σ_{s : Fin (J * R)} f s.

  This is pure reindexing (the position `s` is `j * R + r` with `j = s / R`, `r = s % R`); no property of the
  summands is used.  `tile_sum_range` is the same with both sides as sums over ranges of naturals, and
  `tile_sum_fin` has the outer sum over `Fin J`.
-/
import Mathlib.Algebra.BigOperators.Fin
import Mathlib.Algebra.BigOperators.Intervals

open scoped BigOperators

namespace Cert.LibTileSum

variable {M : Type*} [AddCommMonoid M]

/-- Both sides over ranges of naturals: Σ_{j < J} Σ_{r < R} f (j * R + r) = Σ_{s < J * R} f s. -/
theorem tile_sum_range (R : ℕ) (f : ℕ → M) (J : ℕ) :
    ∑ j ∈ Finset.range J, ∑ r ∈ Finset.range R, f (j * R + r) = ∑ s ∈ Finset.range (J * R), f s := by
  induction J with
  | zero => simp
  | succ J ih =>
    rw [Finset.sum_range_succ, ih, Nat.succ_mul, Finset.sum_range_add]

/-- A sum over J consecutive tiles of R entries each is the sum over all J * R entries. -/
theorem tile_sum (R : ℕ) (f : ℕ → M) (J : ℕ) :
    (Finset.range J).sum (fun j => ∑ r : Fin R, f (j * R + r.val)) = ∑ s : Fin (J * R), f s.val := by
  rw [Fin.sum_univ_eq_sum_range (fun s => f s) (J * R), ← tile_sum_range R f J]
  refine Finset.sum_congr rfl fun j _ => ?_
  exact Fin.sum_univ_eq_sum_range (fun r => f (j * R + r)) R

/-- The same with the outer sum over `Fin J`. -/
theorem tile_sum_fin (R : ℕ) (f : ℕ → M) (J : ℕ) :
    ∑ j : Fin J, ∑ r : Fin R, f (j.val * R + r.val) = ∑ s : Fin (J * R), f s.val := by
  rw [← tile_sum R f J]
  exact Fin.sum_univ_eq_sum_range (fun j => ∑ r : Fin R, f (j * R + r.val)) J

end Cert.LibTileSum
-- ==== Proof.MaskLaw.lean ====
/-
  The two ways of deciding "closer than 8" agree on real coordinates, and a lane-by-lane sum covers every position.

  For real coordinates a₀ a₁ a₂ and b₀ b₁ b₂, write d = (a₀ − b₀)² + (a₁ − b₁)² + (a₂ − b₂)².  Then
  |a|² + |b|² − 2⟨a, b⟩ = d by expanding the squares, and for every real d one has √(max d 0) < 8 ⟺ d < 64: the square
  root of a nonnegative number is below 8 exactly when the number is below 8² = 64, and a negative d is clamped to 0,
  whose root 0 is below 8, while d < 0 < 64.  So the comparison `√(max (|a|² + |b|² − 2⟨a, b⟩) 0) < 8` and the
  comparison `d < 64` are the same truth value; a one-bit word read unsigned, or widened to 32 bits and read signed,
  is the same number 0 or 1.  Hence `nearR = near` entry by entry, and the counts, sums of these over all points,
  agree as well (the zero word a sum starts from is the number 0).

  The reindexing `lanes_sum`: position q of 16384 is jt · 2048 + c · 128 + l with jt < 8, c < 16, l < 128, each
  position exactly once, so summing over l, jt, c in any order is summing over q.
-/
import proofs.«160687_j52458730553493_2_alg».proof.Proof.Spec
import proofs.«160687_j52458730553493_2_alg».proof.Proof.LibTileSum

open scoped BigOperators

namespace Cert.Spec.MaskLaw

open Idealize.ShloMosaic Idealize.ShloMosaic.ValueIdx

/-! ### The literal words -/

/-- The word `0x00000000` is the number 0. -/
theorem word_zero : Ideal.ofBits .f32 0x00000000#32 = ((0 : ℝ) : EReal) := by
  simp [Ideal.ofBits, Ideal.ieee]

/-- The word `0x40000000` is the number 2 (exponent field 128, significand 1: 2²³ · 2^(128 − 127 − 23)). -/
theorem word_two : Ideal.ofBits .f32 0x40000000#32 = ((2 : ℝ) : EReal) := by
  simp [Ideal.ofBits, Ideal.ieee, -EReal.coe_mul]; norm_num

/-- The word `0x41000000` is the number 8 (exponent field 130). -/
theorem word_eight : Ideal.ofBits .f32 0x41000000#32 = ((8 : ℝ) : EReal) := by
  simp [Ideal.ofBits, Ideal.ieee, -EReal.coe_mul]; norm_num

/-- The word `0x42800000` is the number 64 (exponent field 133). -/
theorem word_sixtyfour : Ideal.ofBits .f32 0x42800000#32 = ((64 : ℝ) : EReal) := by
  simp [Ideal.ofBits, Ideal.ieee, -EReal.coe_mul]; norm_num

/-! ### Comparison words -/

/-- The strict comparison of two real numbers, as a one-bit word. -/
theorem cmp_olt_coe (r s : ℝ) : Ideal.cmp .olt (r : EReal) (s : EReal) = BitVec.ofBool (decide (r < s)) := by
  simp [Ideal.cmp, EReal.coe_lt_coe_iff]

/-- A one-bit word widened with zeros to 32 bits and read signed is the word read unsigned: 0 or 1. -/
theorem toInt_setWidth_ofBool (b : Bool) :
    ((BitVec.ofBool b).setWidth 32).toInt = ((BitVec.ofBool b).toNat : ℤ) := by
  cases b <;> decide

/-- For every real d, √(max d 0) < 8 exactly when d < 64. -/
theorem sqrt_max_lt_eight_iff (d : ℝ) : Real.sqrt (max d 0) < 8 ↔ d < 64 := by
  rw [Real.sqrt_lt' (by norm_num : (0 : ℝ) < 8)]
  constructor
  · intro h
    have := le_max_left d 0
    linarith
  · intro h
    rcases le_total d 0 with hd | hd
    · rw [max_eq_right hd]; norm_num
    · rw [max_eq_left hd]; linarith

/-! ### Both deciders on real coordinates -/

/-- On real coordinates `nearK` is the truth value of d < 64, as the number 0 or 1. -/
theorem nearK_coe (a0 a1 a2 b0 b1 b2 : ℝ) :
    nearK a0 a1 a2 b0 b1 b2
      = (((BitVec.ofBool (decide ((a0 - b0) * (a0 - b0) + (a1 - b1) * (a1 - b1) + (a2 - b2) * (a2 - b2) < 64))).toNat
          : ℝ) : EReal) := by
  unfold nearK
  rw [word_sixtyfour]
  simp only [← EReal.coe_sub, ← EReal.coe_mul, ← EReal.coe_add]
  rw [cmp_olt_coe, toInt_setWidth_ofBool]
  simp

/-- On real coordinates `nearR` is the same truth value: |a|² + |b|² − 2⟨a, b⟩ = d, and √(max d 0) < 8 ⟺ d < 64. -/
theorem nearR_coe (x : Pts) (p q : Fin 16384) (a0 a1 a2 b0 b1 b2 : ℝ)
    (h0 : x (ix2 p 0) = a0) (h1 : x (ix2 p 1) = a1) (h2 : x (ix2 p 2) = a2)
    (g0 : x (ix2 q 0) = b0) (g1 : x (ix2 q 1) = b1) (g2 : x (ix2 q 2) = b2) :
    nearR x p q
      = (((BitVec.ofBool (decide ((a0 - b0) * (a0 - b0) + (a1 - b1) * (a1 - b1) + (a2 - b2) * (a2 - b2) < 64))).toNat
          : ℝ) : EReal) := by
  unfold nearR sqn
  simp only [Fin.sum_univ_three, h0, h1, h2, g0, g1, g2, word_zero, word_two, word_eight]
  -- everything is a real number now: bring the arithmetic and the maximum inside the coercion
  simp only [← EReal.coe_sub, ← EReal.coe_mul, ← EReal.coe_add]
  rw [← EReal.coe_strictMono.monotone.map_max]
  -- the square root of a nonnegative real, then the comparison of two reals
  rw [Ideal.sqrt_coe, if_neg (not_lt.mpr (le_max_right _ _)), cmp_olt_coe]
  refine congrArg (fun b : Bool => (((BitVec.ofBool b).toNat : ℝ) : EReal)) ?_
  rw [decide_eq_decide, sqrt_max_lt_eight_iff]
  -- the two quadratic expressions are equal as polynomials
  constructor <;> intro h <;> linarith

end Cert.Spec.MaskLaw

namespace Cert.Spec

open Idealize.ShloMosaic Idealize.ShloMosaic.ValueIdx Cert.Spec.MaskLaw

/-! ### The three laws -/

/-- For real coordinates the two ways of deciding "closer than 8" agree: |p|²+|q|²−2⟨p,q⟩ is the sum of the three squared differences, it is ≥ 0, and √d < 8 ⟺ d < 64 for d ≥ 0; both answers are the number 0 or 1. -/
theorem nearR_eq_near (x : Pts) (hx : ∀ i, ∃ r : ℝ, x i = (r : EReal)) (p q : Fin 16384) : nearR x p q = near x p q := by
  obtain ⟨a0, h0⟩ := hx (ix2 p 0)
  obtain ⟨a1, h1⟩ := hx (ix2 p 1)
  obtain ⟨a2, h2⟩ := hx (ix2 p 2)
  obtain ⟨b0, g0⟩ := hx (ix2 q 0)
  obtain ⟨b1, g1⟩ := hx (ix2 q 1)
  obtain ⟨b2, g2⟩ := hx (ix2 q 2)
  rw [nearR_coe x p q a0 a1 a2 b0 b1 b2 h0 h1 h2 g0 g1 g2, near, h0, h1, h2, g0, g1, g2, nearK_coe]

/-- The two counts agree: they are sums of equal terms, and the zero word the second starts from adds nothing. -/
theorem countR_eq_count (x : Pts) (hx : ∀ i, ∃ r : ℝ, x i = (r : EReal)) (p : Fin 16384) : countR x p = count x p := by
  unfold countR count
  rw [word_zero, EReal.coe_zero, zero_add]
  exact Finset.sum_congr rfl fun q _ => nearR_eq_near x hx p q

/-- Sixteen 128-wide slices of eight 2048-wide tiles, summed lane by lane, are all 16384 positions. -/
theorem lanes_sum (f : ℕ → EReal) :
    ∑ l : Fin 128, ∑ jt ∈ Finset.range 8, ∑ c : Fin 16, f (jt * 2048 + c.val * 128 + l.val) = ∑ q : Fin 16384, f q.val := by
  -- the lane index goes innermost: first under the tile index, then under the slice index
  rw [Finset.sum_comm]
  have inner : ∀ jt : ℕ, ∑ l : Fin 128, ∑ c : Fin 16, f (jt * 2048 + c.val * 128 + l.val)
      = ∑ r : Fin 2048, f (jt * 2048 + r.val) := by
    intro jt
    rw [Finset.sum_comm]
    -- sixteen slices of 128 lanes are the 2048 positions of one tile
    have := Cert.LibTileSum.tile_sum_fin 128 (fun n => f (jt * 2048 + n)) 16
    simp only [Nat.add_assoc] at this ⊢
    exact this
  rw [Finset.sum_congr rfl fun jt _ => inner jt]
  -- eight tiles of 2048 positions are the 8 · 2048 = 16384 positions
  exact Cert.LibTileSum.tile_sum 2048 f 8

end Cert.Spec
-- ==== Proof.Invariant.lean ====
/-
  The running total, step by step, and the counts it ends in.

  Step `n` pairs row block `n / 8` with column tile `n % 8`.  After it, lane `l` of row `r` of the carried 512 × 128
  running total holds, for point `p = (n / 8) · 512 + r`, the number of points among the columns `≡ l (mod 128)` of tiles
  `0 … n % 8` that are closer than 8 to `p` (`acc_eq`): a first tile starts the total from zero, every later tile adds
  its sixteen slices to what the previous step left.  On the last tile of a row block the 128 lanes of each row are
  summed; lanes × tiles × slices are all 16384 columns, so the row's number is the count of point `p` (`out_eq`).
-/
import proofs.«160687_j52458730553493_2_alg».proof.Proof.Pieces
import proofs.«160687_j52458730553493_2_alg».proof.Proof.Payloads
import proofs.«160687_j52458730553493_2_alg».proof.Proof.Blocks
import proofs.«160687_j52458730553493_2_alg».proof.Proof.MaskLaw
import proofs.«160687_j52458730553493_2_alg».proof.Proof.Bounds

noncomputable section

open scoped BigOperators
open Idealize.ShloMosaic Idealize.ShloMosaic.TcCoe Idealize.ShloMosaic.ValueIdx Idealize.SL.Sem

namespace Cert.KernelIdeal.Inv

open Cert.KernelIdeal Cert.KernelIdeal.Gen Cert.Spec

variable (m : (ℓ : Loc nD τ sig) → Buf (Elt Ideal) ℓ)

/-- The coordinate array core `c` is launched with. -/
abbrev X (c : Dev nD) : Pts := m ((c.tc : Thread nD τ).loc main_arg0)

/-- `near` with the second point given by a natural number; zero past the last point. -/
def nearN (x : Pts) (p : Fin 16384) (n : ℕ) : EReal := if h : n < 16384 then near x p ⟨n, h⟩ else 0

/-- Lane `l`'s total for point `p` over tiles `0 … j`. -/
def part (x : Pts) (p : Fin 16384) (l : Fin 128) (j : ℕ) : EReal :=
  ∑ jt ∈ Finset.range (j + 1), ∑ cc : Fin 16, nearN x p (jt * 2048 + cc.val * 128 + l.val)

theorem tlt (t : Fin cfg0.N) : t.val < 256 := lt_of_lt_of_eq t.isLt N_0

/-- The point of row `r` at step `t`. -/
abbrev pt (t : Fin cfg0.N) (r : Fin 512) : Fin 16384 := ⟨t.val / 8 * 512 + r.val, row_lt t.val (tlt t) r⟩

/-- Entry `(r, q)` of step `t`'s 0/1 table compares point `(t / 8) · 512 + r` with point `(t % 8) · 2048 + q`. -/
theorem tile_entry (c : Dev nD) (t : Fin cfg0.N) (r : Fin 512) (q : Fin 2048) :
    k0_pay4 (F := Ideal) (iblk m c 0 t) (iblk m c 1 t) (ix2 r q) = nearN (X m c) (pt t r) (t.val % 8 * 2048 + q.val) := by
  have hq : t.val % 8 * 2048 + q.val < 16384 := col_lt (t.val % 8) (Nat.mod_lt _ (by decide)) q
  refine (Cert.KernelIdeal.Pay.pay4_apply (iblk m c 0 t) (iblk m c 1 t) r q).trans ?_
  unfold nearN
  rw [dif_pos hq]
  unfold near
  rw [Cert.KernelIdeal.Blocks.iblk0_apply m c t r 0, Cert.KernelIdeal.Blocks.iblk0_apply m c t r 1,
    Cert.KernelIdeal.Blocks.iblk0_apply m c t r 2, Cert.KernelIdeal.Blocks.iblk1_apply m c t 0 q,
    Cert.KernelIdeal.Blocks.iblk1_apply m c t 1 q, Cert.KernelIdeal.Blocks.iblk1_apply m c t 2 q]

/-- One step's update of a running total `a`: lane `l` of row `r` gains the sixteen entries of the step's tile in the
    columns `≡ l (mod 128)`. -/
theorem upd_entry (c : Dev nD) (t : Fin cfg0.N) (a : Vec Ideal S512x128 .f32) (r : Fin 512) (l : Fin 128) :
    k0_pay1 (F := Ideal) (k0_pay4 (iblk m c 0 t) (iblk m c 1 t)) (k0_pay5 (iblk m c 0 t) (iblk m c 1 t))
        (k0_pay6 (iblk m c 0 t) (iblk m c 1 t)) a (ix2 r l)
      = a (ix2 r l) + ∑ cc : Fin 16, nearN (X m c) (pt t r) (t.val % 8 * 2048 + cc.val * 128 + l.val) := by
  refine (Cert.KernelIdeal.Pay.pay1_apply (iblk m c 0 t) (iblk m c 1 t) a r l).trans ?_
  refine congrArg (a (ix2 r l) + ·) (Finset.sum_congr rfl fun cc _ => ?_)
  refine (tile_entry m c t r ⟨cc.val * 128 + l.val, lane_lt cc l⟩).trans ?_
  rw [Nat.add_assoc]

/-- After step `n` the carried running total holds the lane totals over tiles `0 … n % 8` of its row block's points. -/
theorem acc_eq (c : Dev nD) : ∀ (n : ℕ) (hn : n < cfg0.N) (r : Fin 512) (l : Fin 128),
    (outsAt0 m c n hn).2 (ix2 r l) = part (X m c) (pt ⟨n, hn⟩ r) l (n % 8)
  | 0, hn, r, l => by
    rw [outsAt0_A m c ⟨0, hn⟩ rfl (by show ¬(0 : ℕ) % 8 = 7; decide)]
    dsimp only
    rw [Cert.KernelIdeal.Pieces.sout_A]
    refine (upd_entry m c ⟨0, hn⟩ _ r l).trans ?_
    rw [Cert.KernelIdeal.Pay.pay3_apply, zero_add]
    unfold part
    rw [show (0 : ℕ) % 8 + 1 = 1 from rfl, Finset.sum_range_one]
    rfl
  | n + 1, hn, r, l => by
    have hN : n + 1 < 256 := lt_of_lt_of_eq hn N_0
    by_cases h0 : (n + 1) % 8 = 0
    · have h1 : ¬(n + 1) % 8 = 7 := by omega
      rw [outsAt0_A m c ⟨n + 1, hn⟩ h0 h1]
      dsimp only
      rw [Cert.KernelIdeal.Pieces.sout_A]
      refine (upd_entry m c ⟨n + 1, hn⟩ _ r l).trans ?_
      rw [Cert.KernelIdeal.Pay.pay3_apply, zero_add]
      unfold part
      show ∑ cc : Fin 16, nearN (X m c) _ ((n + 1) % 8 * 2048 + cc.val * 128 + l.val) = _
      rw [h0, show (0 : ℕ) + 1 = 1 from rfl, Finset.sum_range_one]
    · have hprev := acc_eq c n (Nat.lt_of_succ_lt hn) r l
      have hp : pt (⟨n, Nat.lt_of_succ_lt hn⟩ : Fin cfg0.N) r = pt ⟨n + 1, hn⟩ r := Fin.ext (by
        show n / 8 * 512 + r.val = (n + 1) / 8 * 512 + r.val
        have : (n + 1) / 8 = n / 8 := by omega
        rw [this])
      have hm : (n + 1) % 8 = n % 8 + 1 := by omega
      have step : (outsAt0 m c n (Nat.lt_of_succ_lt hn)).2 (ix2 r l)
            + ∑ cc : Fin 16, nearN (X m c) (pt ⟨n + 1, hn⟩ r) ((n + 1) % 8 * 2048 + cc.val * 128 + l.val)
          = part (X m c) (pt ⟨n + 1, hn⟩ r) l ((n + 1) % 8) := by
        rw [hprev, hp]
        unfold part
        rw [hm, Finset.sum_range_succ _ (n % 8 + 1)]
      by_cases h1 : (n + 1) % 8 = 7
      · rw [outsAt0_C m c ⟨n + 1, hn⟩ h0 h1]
        dsimp only
        rw [Cert.KernelIdeal.Pieces.sout_C]
        exact (upd_entry m c ⟨n + 1, hn⟩ _ r l).trans step
      · rw [outsAt0_B m c ⟨n + 1, hn⟩ h0 h1]
        dsimp only
        rw [Cert.KernelIdeal.Pieces.sout_B]
        exact (upd_entry m c ⟨n + 1, hn⟩ _ r l).trans step

/-- The lanes, tiles and slices of a row are all 16384 columns. -/
theorem lanes_count (x : Pts) (p : Fin 16384) : ∑ l : Fin 128, part x p l 7 = Cert.Spec.count x p := by
  unfold part Cert.Spec.count
  rw [show (7 : ℕ) + 1 = 8 from rfl, lanes_sum (nearN x p)]
  refine Finset.sum_congr rfl fun q _ => ?_
  unfold nearN
  rw [dif_pos q.isLt]

/-- On the last tile of a row block the output column holds the counts of the block's points. -/
theorem out_eq (c : Dev nD) (t : Fin cfg0.N) (h7 : t.val % 8 = 7) (r : Fin 512) (u : Fin 1) :
    (outsAt0 m c t.val t.isLt).1 (ix2 r u) = Cert.Spec.count (X m c) (pt t r) := by
  have h0 : ¬t.val % 8 = 0 := by omega
  have hacc : ∀ l : Fin 128, (outsAt0 m c t.val t.isLt).2 (ix2 r l) = part (X m c) (pt t r) l 7 := fun l => by
    have := acc_eq m c t.val t.isLt r l
    rw [h7] at this
    exact this
  have e := outsAt0_C m c t h0 h7
  have e1 := congrArg Prod.fst e
  have e2 := congrArg Prod.snd e
  dsimp only at e1 e2
  rw [e1, Cert.KernelIdeal.Pieces.out_C]
  refine (Cert.KernelIdeal.Pay.pay2_apply _ r u).trans ?_
  rw [← lanes_count]
  refine Finset.sum_congr rfl fun l _ => ?_
  rw [← hacc l, e2, Cert.KernelIdeal.Pieces.sout_C]

end Cert.KernelIdeal.Inv

end
-- ==== Proof.Tail.lean ====
/-
  The host operations that follow the region, as one function of the launch arguments and the region's result.

  After the region has written the count column, the program looks each point's residue number up in a table of 21
  values (a negative number counted from the table's end), scales the value by -0.1, multiplies it by the point's
  count, sums the 16384 products from zero and divides by 16384.
-/
import proofs.«160687_j52458730553493_2_alg».proof.Proof.Gen.KernelIdeal.Frame
import Idealize.ShloMosaic.Lib.Pipeline.Value
import Idealize.ShloMosaic.Lib.StableHlo.Run
import Idealize.ShloMosaic.PureOps.Ideal

noncomputable section

namespace Cert.KernelIdeal.Tail

open Idealize.ShloMosaic Idealize.ShloMosaic.TcCoe Idealize.SL.Sem Cert.KernelIdeal Cert.KernelIdeal.Gen

/-- The energy from the residue numbers, the table and the count column: the table looked up at the (wrapped) residue
    numbers, times -0.1, times the counts, summed from zero, divided by 16384. -/
def energy (ids : IVec S16384 32) (tbl : FVec Ideal S21 .f32) (cnt : FVec Ideal S16384x1 .f32) : FVec Ideal S_ .f32 :=
  Host.divf (F := Ideal)
    (Host.reduceAdd (F := Ideal)
      (mulf
        (mulf (broadcastInDim S16384 ![] bcast_S_S16384 (constant (F := Ideal) S_ .f32 0xBDCCCCCD#32))
          (Host.gather gather_S21_S16384x1_S16384_n_0_n_n_0_1_1 tbl
            (broadcastInDim S16384x1 ![0] bcast_S16384_S16384x1_0
              (select (cmpi .slt ids (broadcastInDim S16384 ![] bcast_S_S16384 (constantI S_ 32 0#32)))
                (addi ids (broadcastInDim S16384 ![] bcast_S_S16384 (constantI S_ 32 21#32))) ids))))
        (shapeCast S16384 cnt shapeCasts_S16384x1_S16384))
      (constant (F := Ideal) S_ .f32 0x00000000#32) reducesTo_S16384_S_d0 h_S_)
    (constant (F := Ideal) S_ .f32 0x46800000#32)

variable (m : (ℓ : Loc nD τ sig) → Buf (Elt Ideal) ℓ)

/-- After the host operations that follow the region, the result buffer holds the energy of the launch arguments and
    the region's result array. -/
theorem tail_eq (c : Dev nD) :
    Pipeline.afterTail₀ cfgs (dats m) 0 (V0 m) [hostOps1] c main_v14
      = energy (m ((c.tc : Thread nD τ).loc main_arg1)) (m ((c.tc : Thread nD τ).loc main_arg2))
          ((dats m 0 c).arrAt 2 cfg0.N) := by
  unfold Pipeline.afterTail₀
  show StableHlo.after hostOps1 _ (Proc.devRef .tc main_v14) = _
  after_results
  have e1 : Pipeline.withArrays (cfgs 0).spec c (V0 m c) (fun w => (dats m 0 c).arrAt w (cfgs 0).N)
      (Proc.devRef .tc main_arg1) = m ((c.tc : Thread nD τ).loc main_arg1) :=
    (Pipeline.withArrays_of_ne _ c (V0 m c) _ main_arg1
      (by exact (by decide : ∀ w, Pipeline.arrRef spec0 w ≠ main_arg1))).trans (V_main_arg1 m c)
  have e2 : Pipeline.withArrays (cfgs 0).spec c (V0 m c) (fun w => (dats m 0 c).arrAt w (cfgs 0).N)
      (Proc.devRef .tc main_arg2) = m ((c.tc : Thread nD τ).loc main_arg2) :=
    (Pipeline.withArrays_of_ne _ c (V0 m c) _ main_arg2
      (by exact (by decide : ∀ w, Pipeline.arrRef spec0 w ≠ main_arg2))).trans (V_main_arg2 m c)
  have e3 : Pipeline.withArrays (cfgs 0).spec c (V0 m c) (fun w => (dats m 0 c).arrAt w (cfgs 0).N)
      (Proc.devRef .tc main_v1) = (dats m 0 c).arrAt 2 cfg0.N :=
    Pipeline.withArrays_arr spec0 launch0.win.arr_inj c _ _ 2
  rw [e1, e2, e3]
  rfl

end Cert.KernelIdeal.Tail

end
-- ==== Proof.RefCount.lean ====
/-
  The reference program's neighbour-count array, read at an index.

  The reference forms the 16384 × 16384 matrix whose entry (p, q) is the number 0 or 1 answering
  "is √(max (|p|² + |q|² − 2⟨p, q⟩) 0) below 8", and sums each row from the zero word.  Reading the
  program one operation at a time, the entry is `nearR` of the coordinate array and the row sum is `countR`.
-/
import proofs.«160687_j52458730553493_2_alg».proof.Proof.Gen.ReferenceIdeal.Read
import proofs.«160687_j52458730553493_2_alg».proof.Proof.Spec

noncomputable section

open scoped BigOperators

namespace Cert.RefCount

open Idealize.ShloMosaic Idealize.ShloMosaic.ValueIdx Cert.ReferenceIdeal Cert.ReferenceIdeal.Read

/-! ### Where each layout operation reads -/

/-- Row `p` of the 0/1 matrix, column `q`. -/
theorem idx_row (p q : Fin 16384) : idx_main_v18 (ix1 p) q = ix2 p q :=
  funext fun a => Fin.ext (by match a with | ⟨0, _⟩ => rfl | ⟨1, _⟩ => rfl)

/-- The squared norm broadcast along rows reads the norm of the row's point. -/
theorem idx_bcast_row (p q : Fin 16384) : idx_main_v2 (idx_main_v4 (ix2 p q)) = ix1 p :=
  funext fun a => Fin.ext (by match a with | ⟨0, _⟩ => rfl)

/-- The squared norm broadcast along columns reads the norm of the column's point. -/
theorem idx_bcast_col (p q : Fin 16384) : idx_main_v3 (idx_main_v5 (ix2 p q)) = ix1 q :=
  funext fun a => Fin.ext (by match a with | ⟨0, _⟩ => rfl)

/-- The norm's sum over coordinates reads coordinate `k` of point `p`. -/
theorem idx_norm (p : Fin 16384) (k : Fin 3) : idx_main_v1 (ix1 p) k = ix2 p k :=
  funext fun a => Fin.ext (by match a with | ⟨0, _⟩ => rfl | ⟨1, _⟩ => rfl)

/-- The inner product's left factor is coordinate `k` of the row's point. -/
theorem idx_dot_left (p q : Fin 16384) (k : Fin 3) : lidx_main_v8 (ix2 p q) k = ix2 p k :=
  funext fun a => Fin.ext (by match a with | ⟨0, _⟩ => rfl | ⟨1, _⟩ => rfl)

/-- The inner product's right factor, through the transpose, is coordinate `k` of the column's point. -/
theorem idx_dot_right (p q : Fin 16384) (k : Fin 3) : idx_main_v7 (ridx_main_v8 (ix2 p q) k) = ix2 q k :=
  funext fun a => Fin.ext (by match a with | ⟨0, _⟩ => rfl | ⟨1, _⟩ => rfl)

/-! ### The values -/

/-- The reference's squared norm of point `p`. -/
theorem sqn_ref (x0 : (⟨S16384x3, .f32⟩ : BufTy).Contents (Elt Ideal)) (p : Fin 16384) :
    val_main_v1 (F := Ideal) x0 (ix1 p) = Cert.Spec.sqn x0 p := by
  unfold Cert.Spec.sqn
  rw [val_main_v1_apply, val_main_cst_apply, Ideal.ofBits_def]
  refine congrArg (_ + ·) (Finset.sum_congr rfl fun k _ => ?_)
  rw [val_main_v0_apply, idx_norm, Ideal.mulf_def]

/-- The reference's inner product of points `p` and `q`. -/
theorem dot_ref (x0 : (⟨S16384x3, .f32⟩ : BufTy).Contents (Elt Ideal)) (p q : Fin 16384) :
    val_main_v8 (F := Ideal) x0 (ix2 p q) = ∑ k : Fin 3, x0 (ix2 p k) * x0 (ix2 q k) := by
  rw [val_main_v8_apply]
  refine Finset.sum_congr rfl fun k _ => ?_
  rw [val_main_v7_apply, idx_dot_left, idx_dot_right]

/-- Entry `(p, q)` of the reference's 0/1 matrix. -/
theorem near_ref (x0 : (⟨S16384x3, .f32⟩ : BufTy).Contents (Elt Ideal)) (p q : Fin 16384) :
    val_main_v17 (F := Ideal) x0 (ix2 p q) = Cert.Spec.nearR x0 p q := by
  unfold Cert.Spec.nearR
  rw [val_main_v17_apply, val_main_v16_apply, val_main_v14_apply, val_main_v15_apply, val_main_cst_2_apply,
    val_main_v13_apply, val_main_v12_apply, val_main_cst_1_apply, val_main_v11_apply, val_main_v6_apply,
    val_main_v10_apply, val_main_v9_apply, val_main_cst_0_apply, val_main_v4_apply, val_main_v2_apply,
    val_main_v5_apply, val_main_v3_apply, idx_bcast_row, idx_bcast_col, sqn_ref, sqn_ref, dot_ref]
  rfl

/-- The reference's count array (the row sums of its 0/1 matrix), at point p, is `countR` of the coordinate array. -/
theorem count_ref (x0 : (⟨S16384x3, .f32⟩ : BufTy).Contents (Elt Ideal)) (p : Fin 16384) :
    val_main_v18 (F := Ideal) x0 (ix1 p) = Cert.Spec.countR x0 p := by
  unfold Cert.Spec.countR
  rw [val_main_v18_apply, val_main_cst_3_apply, Ideal.ofBits_def]
  refine congrArg (_ + ·) (Finset.sum_congr rfl fun q _ => ?_)
  rw [idx_row, near_ref]

end Cert.RefCount

end
-- ==== Proof.Bridge.lean ====
/-
  The two programs' count arrays are one array.

  The reference forms, for every point, the row sum of its 0/1 matrix; the kernel's region leaves the counts as a
  one-column array which the program then views as a vector.  For real coordinates the two 0/1 answers agree entry by
  entry, so the reference's vector of row sums is the kernel's column of counts, viewed as a vector.
-/
import proofs.«160687_j52458730553493_2_alg».proof.Proof.RefCount
import proofs.«160687_j52458730553493_2_alg».proof.Proof.MaskLaw
import Idealize.ShloMosaic.Lib.Pipeline.Value
import Idealize.ShloMosaic.Lib.ValueIdx

noncomputable section

open Idealize.ShloMosaic Idealize.ShloMosaic.ValueIdx

namespace Cert.Bridge

/-- A one-column array `[a, 1]` viewed as a vector `[a]` reads, at `i`, the column's entry of row `i`: both sit at
    row-major position `i`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The counts as a one-column array. -/
def countCol (x : Cert.Spec.Pts) : (⟨2, ![16384, 1]⟩ : Shape).Idx → EReal :=
  fun j => Cert.Spec.count x ⟨(j 0).val, (j 0).isLt⟩

/-- For real coordinates the reference's vector of row sums is the column of counts viewed as a vector. -/
theorem counts_eq (x0 : (⟨Cert.ReferenceIdeal.S16384x3, .f32⟩ : BufTy).Contents (Elt Ideal))
    (hx : ∀ i, ∃ r : ℝ, x0 i = (r : EReal)) (h : (⟨2, ![16384, 1]⟩ : Shape).ShapeCasts ⟨1, ![16384]⟩) :
    Cert.ReferenceIdeal.Read.val_main_v18 (F := Ideal) x0 = shapeCast ⟨1, ![16384]⟩ (countCol x0) h := by
  funext i
  obtain ⟨p, rfl⟩ : ∃ p : Fin 16384, i = ix1 p := ⟨i 0, eq_ix1 i⟩
  rw [Cert.RefCount.count_ref, Cert.Spec.countR_eq_count _ hx, shapeCast_a1_a_apply]
  rfl

end Cert.Bridge

end
-- ==== Proof.EnergyEq.lean ====
/-
  The reference program's result as the energy of the count column.

  After its vector of counts the reference applies the same closing operations as the other program: the table looked
  up at the wrapped residue numbers, times -0.1, times the counts, summed from zero, divided by 16384.  Since for real
  coordinates its vector of counts is the column of counts viewed as a vector, its result is the energy of that column.
-/
import proofs.«160687_j52458730553493_2_alg».proof.Proof.Tail
import proofs.«160687_j52458730553493_2_alg».proof.Proof.Bridge
import proofs.«160687_j52458730553493_2_alg».proof.Proof.Gen.ReferenceIdeal.Read

noncomputable section

namespace Cert.EnergyEq

open Idealize.ShloMosaic

/-- For real coordinates the reference's result is the energy of the residue numbers, the table and the column of
    counts: after its count vector the reference applies the same operations as the other program (look up the table
    at the wrapped residue numbers, times -0.1, times the counts, sum from zero, divide by 16384). -/
theorem ref_energy (x0 : (⟨Cert.ReferenceIdeal.S16384x3, .f32⟩ : BufTy).Contents (Elt Ideal))
    (x1 : (⟨Cert.ReferenceIdeal.S16384, .i32⟩ : BufTy).Contents (Elt Ideal))
    (x2 : (⟨Cert.ReferenceIdeal.S21, .f32⟩ : BufTy).Contents (Elt Ideal))
    (hx : ∀ i, ∃ r : ℝ, x0 i = (r : EReal)) :
    Cert.ReferenceIdeal.Read.val_main_v30 (F := Ideal) x0 x1 x2
      = Cert.KernelIdeal.Tail.energy x1 x2 (Cert.Bridge.countCol x0) := by
  unfold Cert.ReferenceIdeal.Read.val_main_v30 Cert.ReferenceIdeal.Read.val_main_v29
    Cert.ReferenceIdeal.Read.val_main_v28
  rw [Cert.Bridge.counts_eq x0 hx Cert.KernelIdeal.Gen.shapeCasts_S16384x1_S16384]
  rfl

end Cert.EnergyEq

end
-- ==== Proof.LibRealEntries.lean ====
/-
  Entries that are real numbers, and the array operations that keep them so (at the ideal instance, where a float is
  an extended real). A sum, a product, a maximum and a finite sum of real numbers are real; hence entrywise sums,
  products and maxima of arrays with real entries, their broadcasts, a gather from such an array (each result entry
  is an entry of the operand), an accumulating scatter of such updates into such an operand (each entry gains
  finitely many real updates), and a contraction of two such arrays (finite sums of real products from zero) all
  have real entries. The reciprocal square root of an extended real that is at least one is real (it is 0 at +∞), so a
  reciprocal square root of anything clamped below at one is real, whatever was clamped.
-/
import Idealize.ShloMosaic.PureOps.Ideal.Laws

noncomputable section

namespace Cert.LibRealEntries

open Idealize.ShloMosaic Idealize.ShloMosaic.TcCoe

/-- An extended real that is a real number. -/
def IsReal (x : EReal) : Prop := ∃ y : ℝ, x = (y : EReal)

theorem IsReal.zero : IsReal 0 := ⟨0, rfl⟩
theorem IsReal.one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  obtain ⟨a, rfl⟩ := hx; obtain ⟨b, rfl⟩ := hy; exact ⟨Max.max a b, (EReal.coe_strictMono.monotone.map_max).symm⟩
theorem IsReal.sum {ι : Type} (s : Finset ι) (f : ι → EReal) (h : ∀ i ∈ s, IsReal (f i)) : IsReal (∑ i ∈ s, f i) :=
  Finset.sum_induction f IsReal (fun _ _ => IsReal.add) IsReal.zero h

/-- The reciprocal square root of an extended real that is at least one is a real number. -/
theorem isReal_rsqrt_of_one_le {x : EReal} (h : 1 ≤ x) : IsReal (Ideal.rsqrt x) := by
  induction x using EReal.rec with
  | bot =>
    have hlt : (⊥ : EReal) < 1 := by exact_mod_cast EReal.bot_lt_coe 1
    exact absurd h (not_le.mpr hlt)
  | top => exact ⟨0, rfl⟩
  | coe r =>
    have hr : (1 : ℝ) ≤ r := by exact_mod_cast h
    show IsReal (if r < 0 then ⊥ else if r = 0 then ⊤ else (((Real.sqrt r)⁻¹ : ℝ) : EReal))
    rw [if_neg (by linarith), if_neg (by linarith)]
    exact ⟨_, rfl⟩

theorem isReal_zero_word : IsReal (Ideal.ofBits .f32 0x00000000#32) := by
  rw [Ideal.ofBits_zero_f32]; exact IsReal.zero

/-! ## The operations keep entries real (any shapes) -/

section Generic
variable {s t si u sl sr so : Shape} {w : Nat}

theorem real_maximumf (a b : FVec Ideal s .f32) (ha : ∀ i, IsReal (a i)) (hb : ∀ i, IsReal (b i)) (i : s.Idx) :
    IsReal (maximumf a b i) := (ha i).max (hb i)
theorem real_addf (a b : FVec Ideal s .f32) (ha : ∀ i, IsReal (a i)) (hb : ∀ i, IsReal (b i)) (i : s.Idx) :
    IsReal (addf a b i) := (ha i).add (hb i)
theorem real_mulf (a b : FVec Ideal s .f32) (ha : ∀ i, IsReal (a i)) (hb : ∀ i, IsReal (b i)) (i : s.Idx) :
    IsReal (mulf a b i) := (ha i).mul (hb i)
theorem real_bcast (dims : Fin s.rank → Fin t.rank) (h : s.BroadcastsInDim t dims) (x : FVec Ideal s .f32)
    (hx : ∀ i, IsReal (x i)) (j : t.Idx) : IsReal (broadcastInDim t dims h x j) := hx _
theorem real_gather (d : GatherDims s si t) (x : FVec Ideal s .f32) (idx : IVec si w) (hx : ∀ i, IsReal (x i)) (j : t.Idx) :
    IsReal (Host.gather d x idx j) := hx _
theorem real_scatterAdd (d : ScatterDims s si u) (x : FVec Ideal s .f32) (idx : IVec si w) (upd : FVec Ideal u .f32)
    (hx : ∀ i, IsReal (x i)) (hu : ∀ j, IsReal (upd j)) (i : s.Idx) : IsReal (Host.scatterAdd d x idx upd i) :=
  (hx i).add (IsReal.sum _ _ fun j _ => hu j)
theorem real_dot (d : DotDims sl sr so) (prec : Option ContractPrecision) (l : FVec Ideal sl .f32) (r : FVec Ideal sr .f32)
    (hl : ∀ i, IsReal (l i)) (hr : ∀ i, IsReal (r i)) (j : so.Idx) : IsReal (Host.dotGeneral d prec l r j) :=
  IsReal.zero.add (IsReal.sum _ _ fun k _ => (hl _).mul (hr _))
/-- A reciprocal square root of a value clamped below at one. -/
theorem real_rsqrt_clamp (one y : FVec Ideal s .f32) (h1 : ∀ i, one i = 1) (i : s.Idx) :
    IsReal (Host.rsqrt (maximumf one y) i) := by
  show IsReal (Ideal.rsqrt (Max.max (one i) (y i)))
  rw [h1 i]; exact isReal_rsqrt_of_one_le (le_max_left _ _)

end Generic

end Cert.LibRealEntries

end
-- ==== Proof.LibAllFinite.lean ====
/-
  Reading a precondition's words. A precondition printed from `jnp.all(jnp.abs(x) < inf) & … & jnp.all(s > 0)` is a
  conjunction of `and`-reductions of comparison words, read at its one index. A comparison word that is `1` is the
  comparison of the two extended reals; `|x| < +∞` makes `x` a real number; hence an all-reduction of `|a| < +∞`
  that is `1` makes every entry of `a` real, and a word `a > b` at an index is `b j < a j`.
-/
import proofs.«160687_j52458730553493_2_alg».proof.Proof.LibRealEntries
import Idealize.ShloMosaic.Lib.ReduceAll
import Idealize.ShloMosaic.Lib.ValueIdx
import Idealize.ShloMosaic.PureOps.Ideal.Laws

noncomputable section

namespace Cert.LibAllFinite

open Idealize.ShloMosaic Idealize.ShloMosaic.ValueIdx Cert.LibRealEntries

instance : Subsingleton (⟨0, ![]⟩ : Shape).Idx := ⟨fun a b => funext fun d => d.elim0⟩

/-- The word `0x7F800000` is `+∞`. -/
theorem ofBits_inf : Ideal.ofBits .f32 0x7F800000#32 = (⊤ : EReal) := by
  simp [Ideal.ofBits, Ideal.ieee]

/-- A true comparison word is the comparison. -/
theorem lt_of_cmp_olt {x y : EReal} (h : Ideal.cmp .olt x y = 1#1) : x < y := by
  by_contra hn
  have : decide (x < y) = false := decide_eq_false hn
  simp [Ideal.cmp, this] at h

theorem lt_of_cmp_ogt {x y : EReal} (h : Ideal.cmp .ogt x y = 1#1) : y < x := by
  by_contra hn
  have : decide (y < x) = false := decide_eq_false hn
  simp [Ideal.cmp, this] at h

/-- `|x| < +∞` makes `x` a real number. -/
theorem isReal_of_abs_lt_top (x : EReal) (h : max x (-x) < (⊤ : EReal)) : IsReal x := by
  induction x using EReal.rec with
  | bot => simp at h
  | coe r => exact ⟨r, rfl⟩
  | top => simp at h

/-- `jnp.all(|a| < +∞)` that is true makes every entry of `a` a real number. -/
theorem real_of_all {s : Shape} {axes : List (Fin s.rank)} (a : FVec Ideal s .f32)
    (hb : (⟨0, ![]⟩ : Shape).BroadcastsInDim s (![] : Fin 0 → Fin s.rank))
    (init : IVec ⟨0, ![]⟩ 1) (hred : s.ReducesTo axes ⟨0, ![]⟩) (hu : 0 < (⟨0, ![]⟩ : Shape).numel)
    (h : Host.reduce IntOp.andi
      (cmpf .olt (Host.absf a) (broadcastInDim s ![] hb (constant (F := Ideal) ⟨0, ![]⟩ .f32 0x7F800000#32)))
      init hred hu ix0 = 1#1) (i : s.Idx) : IsReal (a i) := by
  have hi := Host.reduce_andi_all _ init hred hu ix0 h i
  have h1 : Ideal.cmp .olt (max (a i) (-(a i))) (Ideal.ofBits .f32 0x7F800000#32) = 1#1 := hi
  rw [ofBits_inf] at h1
  exact isReal_of_abs_lt_top _ (lt_of_cmp_olt h1)

/-- A true comparison word between two arrays at an index is the inequality of their entries. -/
theorem lt_of_cmpf_ogt {s : Shape} (a b : FVec Ideal s .f32) (j : s.Idx) (h : cmpf .ogt a b j = 1#1) : b j < a j :=
  lt_of_cmp_ogt h

end Cert.LibAllFinite

end
-- ==== Proof.Finite.lean ====
/-
  Reading the precondition `finite_inputs`.

  The precondition is the conjunction of two all-reductions: every coordinate has `|x| < +∞`, and every entry of the
  third argument has `|s| < +∞`.  When the conjunction is the word 1, its first conjunct is the word 1, and an
  all-reduction of `|x| < +∞` that is 1 makes every entry of `x` a real number.
-/
import proofs.«160687_j52458730553493_2_alg».proof.Pre_finite_inputs
import proofs.«160687_j52458730553493_2_alg».proof.Proof.LibAllFinite

noncomputable section

namespace Cert.Finite

open Idealize.ShloMosaic

/-- A true `finite_inputs` makes every coordinate a real number. -/
theorem coords_real [Cert.Pre_finite_inputs.Facts]
    (a0 : FVec Ideal Cert.Pre_finite_inputs.S16384x3 .f32) (a1 : IVec Cert.Pre_finite_inputs.S16384 32)
    (a2 : FVec Ideal Cert.Pre_finite_inputs.S21 .f32)
    (h : Cert.Pre_finite_inputs.fn (F := Ideal) a0 a1 a2 = fun _ => 1#1) (i : Cert.Pre_finite_inputs.S16384x3.Idx) :
    ∃ r : ℝ, a0 i = (r : EReal) := by
  have h0 := congrFun h ValueIdx.ix0
  dsimp only [Cert.Pre_finite_inputs.fn] at h0
  -- the conjunction of the two reductions is 1, so the first is
  have h1 := (IntOp.andi_eq_one.1 h0).1
  exact Cert.LibAllFinite.real_of_all a0 Cert.Pre_finite_inputs.Facts.bcast_S_S16384x3 _
    Cert.Pre_finite_inputs.Facts.reducesTo_S16384x3_S_d0_1 Cert.Pre_finite_inputs.Facts.h_S_ h1 i

end Cert.Finite

end
-- ==== Proof.Claims.lean ====
/-
  The five claims.

  The kernel program computes, for each of 16384 points, the number of points closer than 8 to it — by comparing squared
  distances with 64, tile by tile, and adding 0/1 answers — and from these counts, a table looked up at residue numbers
  and the factor −0.1, an average energy.  The reference computes the same counts from `√(max(|p|² + |q|² − 2⟨p, q⟩, 0)) < 8`
  and then applies the same operations.  For real coordinates (the precondition) the two 0/1 answers agree entry by entry,
  so the counts agree, and the shared operations give equal results.  Neither program changes its arguments; the
  idealization rewrote nothing.
-/
import proofs.«160687_j52458730553493_2_alg».proof.Proof.KernelRun
import proofs.«160687_j52458730553493_2_alg».proof.Proof.Final
import proofs.«160687_j52458730553493_2_alg».proof.Proof.Invariant
import proofs.«160687_j52458730553493_2_alg».proof.Proof.Tail
import proofs.«160687_j52458730553493_2_alg».proof.Proof.EnergyEq
import proofs.«160687_j52458730553493_2_alg».proof.Proof.Finite
import proofs.«160687_j52458730553493_2_alg».proof.Defs
import proofs.«160687_j52458730553493_2_alg».proof.Proof.Gen.Kernel.Frame
import proofs.«160687_j52458730553493_2_alg».proof.Proof.Gen.KernelIdeal.Frame
import proofs.«160687_j52458730553493_2_alg».proof.Proof.Gen.ReferenceIdeal.Read
import proofs.«160687_j52458730553493_2_alg».proof.Proof.Gen.Pre_finite_inputs

noncomputable section

namespace Cert.Proof.Claims

open Idealize.ShloMosaic Idealize.ShloMosaic.TcCoe Idealize.SL.Sem

/-- The kernel program runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as they were: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end at the energy of the residue numbers, the table and the column of counts: the kernel
    program because its region leaves the counts and the operations after it are the energy's; the reference because,
    its coordinates being real, its count vector is that column and the operations after it are the same. -/
theorem algebraic : Cert.algebraic_KernelIdeal_ReferenceIdeal := by
  intro m ρ m' ρ' hpre hagree
  refine ⟨fun c => Cert.KernelIdeal.Tail.energy
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (Cert.KernelIdeal.Final.countCol m c), ?_, ?_⟩
  · exact Cert.KernelIdeal.KRun.run_of m ρ _ (fun c => (Cert.KernelIdeal.Tail.tail_eq m c).trans
      (congrArg (Cert.KernelIdeal.Tail.energy _ _)
        (Cert.KernelIdeal.Final.final_counts m c (fun t h7 r u => Cert.KernelIdeal.Inv.out_eq m c t h7 r u))))
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v30_eq, (hagree c).1, (hagree c).2.1, (hagree c).2.2]
    exact Cert.EnergyEq.ref_energy _ _ _ (fun i => Cert.Finite.coords_real _ _ _ (hpre c) i)

end Cert.Proof.Claims

end
-- ==== Proof.lean ====
/-
  The certificate's proof: the programs' stated side conditions are the generated witnesses; the five claims are proved
  in `Proof/Claims.lean` from the modules it imports (what one step of the kernel leaves, the running total step by
  step, the result array from its blocks, the host operations after the region, the reference's count vector, the law
  joining the two ways of deciding "closer than 8", and the precondition's reading).
-/
import proofs.«160687_j52458730553493_2_alg».proof.Defs
import proofs.«160687_j52458730553493_2_alg».proof.Proof.Claims
import proofs.«160687_j52458730553493_2_alg».proof.Proof.Gen.Kernel
import proofs.«160687_j52458730553493_2_alg».proof.Proof.Gen.KernelIdeal
import proofs.«160687_j52458730553493_2_alg».proof.Proof.Gen.ReferenceIdeal
import proofs.«160687_j52458730553493_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
